-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x4096x1024 : Shape := ⟨3, ![8, 4096, 1024]⟩
abbrev S8x1024x4096 : Shape := ⟨3, ![8, 1024, 4096]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x1024x4096 : S_.BroadcastsInDim S8x1024x4096 (![] : Fin 0 → Fin S8x1024x4096.rank)
  reducesTo_S8x1024x4096_S_d0_1_2 : S8x1024x4096.ReducesTo [0, 1, 2] S_

variable [Facts]

def fn {F : FTy → Type} [FloatOps F] (main_arg0 : FVec F S8x2048x1024 .f32) (main_arg1 : FVec F S8x4096x1024 .f32) (main_arg2 : FVec F S8x1024x4096 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S8x1024x4096 .f32 := Host.absf main_arg2
  let main_cst_2 : FVec F S_ .f32 := constant S_ .f32 0x7F800000#32
  let main_v10 : FVec F S8x1024x4096 .f32 := broadcastInDim S8x1024x4096 ![] bcast_S_S8x1024x4096 main_cst_2
  let main_v11 : IVec S8x1024x4096 1 := cmpf .olt main_v9 main_v10
  let main_c_3 : IVec S_ 1 := constantI S_ 1 1#1
  let main_v12 : IVec S_ 1 := (fun x v => Host.reduce IntOp.andi x v reducesTo_S8x1024x4096_S_d0_1_2 h_S_) main_v11 main_c_3
  let main_v13 : IVec S_ 1 := andi main_v8 main_v12
  main_v13
-- ==== Kernel.lean ====
abbrev S8x2048x1024 : Shape := ⟨3, ![8, 2048, 1024]⟩
abbrev S8x4096x1024 : Shape := ⟨3, ![8, 4096, 1024]⟩
abbrev S8x1024x4096 : Shape := ⟨3, ![8, 1024, 4096]⟩
abbrev S1x1024x1024 : Shape := ⟨3, ![1, 1024, 1024]⟩
abbrev S1x512x1024 : Shape := ⟨3, ![1, 512, 1024]⟩
abbrev S1x1024x512 : Shape := ⟨3, ![1, 1024, 512]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 6
  | .vmem => 9
  | .smem => 0
  | _ => 0

abbrev bufTy : (tb : Table) → Fin (tcTables nBuf tb) → BufTy
  | .hbm, ⟨0, _⟩ => ⟨S8x2048x1024, .f32⟩
  | .hbm, ⟨1, _⟩ => ⟨S8x4096x1024, .f32⟩
  | .hbm, ⟨2, _⟩ => ⟨S8x1024x4096, .f32⟩
  | .hbm, ⟨3, _⟩ => ⟨S8x4096x1024, .bf16⟩
  | .hbm, ⟨4, _⟩ => ⟨S8x1024x4096, .bf16⟩
  | .hbm, ⟨5, _⟩ => ⟨S8x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x1024, .f32⟩
  | .local _ .vmem, ⟨7, _⟩ => ⟨S1x1024x1024, .f32⟩
  | .local _ .vmem, ⟨8, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 8], ![false, false, false]⟩

def k0_cond2 (i : grid0.Coords) : BitVec 1 :=
  let arg2 : BitVec 32 := BitVec.ofNat 32 (i 2).val
  let c7_i32 : BitVec 32 := 7#32
  let v20 : BitVec 1 := Scalar.cmpi .eq arg2 c7_i32
  let v21 : BitVec 32 := Scalar.extui v20
  let c0_i32_15 : BitVec 32 := 0#32
  let v22 : BitVec 1 := Scalar.cmpi .ne v21 c0_i32_15
  v22

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x1024_S1x1024x1024 : S1024x1024.ShapeCasts S1x1024x1024
  dot_S1024x1024_S512x1024_S1024x512_1_1_0_0_n_n_wf : DotDims.WF S1024x1024 S512x1024 S1024x512 [1] [1] [0] [0] [] []
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x2048x1024.size a
  hwx0_0 : ∀ i : grid0.Coords, EltTy.bits .f32 = 32 ∨ (Rect.block (s := S8x2048x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S8x4096x1024.size a
  hwx0_1 : ∀ i : grid0.Coords, EltTy.bits .bf16 = 32 ∨ (Rect.block (s := S8x4096x1024) S1x512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S8x1024x4096.size a
  hwx0_2 : ∀ i : grid0.Coords, EltTy.bits .bf16 = 32 ∨ (Rect.block (s := S8x1024x4096) S1x1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x2048x1024.size a
  hwx0_3 : ∀ i : grid0.Coords, EltTy.bits .f32 = 32 ∨ (Rect.block (s := S8x2048x1024) S1x1024x1024.size (cc0_transform_3 i) (hinb0_3 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S8x4096x1024 : Shape := ⟨3, ![8, 4096, 1024]⟩
abbrev S8x1024x4096 : Shape := ⟨3, ![8, 1024, 4096]⟩
abbrev S8x2048x4096 : Shape := ⟨3, ![8, 2048, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x4096x1024, .f32⟩
  | .hbm, ⟨2, _⟩ => ⟨S8x1024x4096, .f32⟩
  | .hbm, ⟨3, _⟩ => ⟨S8x2048x4096, .f32⟩
  | .hbm, ⟨4, _⟩ => ⟨S_, .f32⟩
  | .hbm, ⟨5, _⟩ => ⟨S8x2048x4096, .f32⟩
  | .hbm, ⟨6, _⟩ => ⟨S8x2048x4096, .f32⟩
  | .hbm, ⟨7, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S8x2048x4096 : S_.BroadcastsInDim S8x2048x4096 (![] : Fin 0 → Fin S8x2048x4096.rank)
  dot_S8x2048x1024_S8x4096x1024_S8x2048x4096_2_2_1_1_0_0_wf : DotDims.WF S8x2048x1024 S8x4096x1024 S8x2048x4096 [2] [2] [1] [1] [0] [0]
  dot_S8x2048x4096_S8x1024x4096_S8x2048x1024_2_2_1_1_0_0_wf : DotDims.WF S8x2048x4096 S8x1024x4096 S8x2048x1024 [2] [2] [1] [1] [0] [0]

variable [Facts₀]

def dot_S8x2048x1024_S8x4096x1024_S8x2048x4096_2_2_1_1_0_0 : DotDims S8x2048x1024 S8x4096x1024 S8x2048x4096 where
  lhsContracting := [2]
  rhsContracting := [2]
  lhsNonContracting := [1]
  rhsNonContracting := [1]
  lhsBatch := [0]
  rhsBatch := [0]
  wf := dot_S8x2048x1024_S8x4096x1024_S8x2048x4096_2_2_1_1_0_0_wf
def dot_S8x2048x4096_S8x1024x4096_S8x2048x1024_2_2_1_1_0_0 : DotDims S8x2048x4096 S8x1024x4096 S8x2048x1024 where
  lhsContracting := [2]
  rhsContracting := [2]
  lhsNonContracting := [1]
  rhsNonContracting := [1]
  lhsBatch := [0]
  rhsBatch := [0]
  wf := dot_S8x2048x4096_S8x1024x4096_S8x2048x1024_2_2_1_1_0_0_wf

class Facts : Prop extends Facts₀ where

variable [Facts]
-- ==== Proof.Cases.lean ====
/-
  What one grid step leaves behind, in each of the body's three control cases, as the step's pure payloads.

  The body keeps a 1024-by-1024 accumulator across the eight hidden tiles of one token block. At the first tile it
  zeroes the accumulator, reads the zeros back and stores the step's payload over them; at every later tile it stores
  the step's payload over what the tile before left; at the last tile it also copies the accumulator, under a leading
  unit axis, into the output block. Each store covers its whole buffer and each load reads a whole buffer, so what a
  buffer holds afterwards is the last covering store's payload, with the loads replaced by the buffers' contents.
  These equations hold for any float values.
-/
import proofs.«177868_j35948876267749_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.Ffn.Cases

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Between its first and last hidden tile the body leaves, in the accumulator holding `acc`, the step's payload
    over the three input blocks and `acc`: one store covering the accumulator, its loads reading whole buffers. -/
theorem scratch_B (c : Dev nD) (i : grid0.Coords) (arg3 : Memref sig .tc .vmem S1x1024x1024 .f32) (harg3 : arg3.IsWhole) (arg4 : Memref sig .tc .vmem S1x512x1024 .bf16) (harg4 : arg4.IsWhole) (arg5 : Memref sig .tc .vmem S1x1024x512 .bf16) (harg5 : arg5.IsWhole) (arg6 : Memref sig .tc .vmem S1x1024x1024 .f32) (harg6 : arg6.IsWhole) (arg7 : Memref sig .tc .vmem S1024x1024 .f32) (harg7 : arg7.IsWhole) (hc0 : ¬cond0_0 i) (hc1 : ¬cond0_1 i)
    (x0 : Vec F S1x1024x1024 .f32) (x1 : Vec F S1x512x1024 .bf16) (x2 : Vec F S1x1024x512 .bf16) (acc : Vec F S1024x1024 .f32) :
    sout0_B_0 c i arg3 harg3 arg4 harg4 arg5 harg5 arg6 harg6 arg7 harg7 hc0 hc1 x0 x1 x2 acc = k0_pay2 x0 x1 x2 acc := by
  unfold sout0_B_0
  rw [View.read_writes_eq_canon _ _ _ (scover0_B_0 c i arg3 harg3 arg4 harg4 arg5 harg5 arg6 harg6 arg7 harg7 hc0 hc1 x0 x1 x2 acc)]
  unfold kernelRun0_B
  dsimp only
  rw [View.canon_unit_zero hz2]
  simp only [View.readAt_eq_ld, harg3.read_unread, harg4.read_unread, harg5.read_unread, harg7.read_unread,
    View.ld_unit_zero (S := S1x1024x1024) hz3, View.ld_unit_zero (S := S1x512x1024) hz3,
    View.ld_unit_zero (S := S1x1024x512) hz3, View.ld_unit_zero (S := S1024x1024) hz2]

/-- At the last hidden tile the accumulator is left the same way … -/
theorem scratch_C (c : Dev nD) (i : grid0.Coords) (arg3 : Memref sig .tc .vmem S1x1024x1024 .f32) (harg3 : arg3.IsWhole) (arg4 : Memref sig .tc .vmem S1x512x1024 .bf16) (harg4 : arg4.IsWhole) (arg5 : Memref sig .tc .vmem S1x1024x512 .bf16) (harg5 : arg5.IsWhole) (arg6 : Memref sig .tc .vmem S1x1024x1024 .f32) (harg6 : arg6.IsWhole) (arg7 : Memref sig .tc .vmem S1024x1024 .f32) (harg7 : arg7.IsWhole) (hc0 : ¬cond0_0 i) (hc1 : cond0_1 i)
    (x0 : Vec F S1x1024x1024 .f32) (x1 : Vec F S1x512x1024 .bf16) (x2 : Vec F S1x1024x512 .bf16) (acc : Vec F S1024x1024 .f32) :
    sout0_C_0 c i arg3 harg3 arg4 harg4 arg5 harg5 arg6 harg6 arg7 harg7 hc0 hc1 x0 x1 x2 acc = k0_pay2 x0 x1 x2 acc := by
  unfold sout0_C_0
  rw [View.read_writes_eq_canon _ _ _ (scover0_C_0 c i arg3 harg3 arg4 harg4 arg5 harg5 arg6 harg6 arg7 harg7 hc0 hc1 x0 x1 x2 acc)]
  unfold kernelRun0_C
  dsimp only
  sl_unfold_words
  rw [View.canon_unit_zero hz2]
  simp only [View.readAt_eq_ld, harg3.read_unread, harg4.read_unread, harg5.read_unread, harg7.read_unread,
    View.ld_unit_zero (S := S1x1024x1024) hz3, View.ld_unit_zero (S := S1x512x1024) hz3,
    View.ld_unit_zero (S := S1x1024x512) hz3, View.ld_unit_zero (S := S1024x1024) hz2]

/-- … and the output block is the accumulator just stored, read back and given a leading unit axis. -/
theorem out_C (c : Dev nD) (i : grid0.Coords) (arg3 : Memref sig .tc .vmem S1x1024x1024 .f32) (harg3 : arg3.IsWhole) (arg4 : Memref sig .tc .vmem S1x512x1024 .bf16) (harg4 : arg4.IsWhole) (arg5 : Memref sig .tc .vmem S1x1024x512 .bf16) (harg5 : arg5.IsWhole) (arg6 : Memref sig .tc .vmem S1x1024x1024 .f32) (harg6 : arg6.IsWhole) (arg7 : Memref sig .tc .vmem S1024x1024 .f32) (harg7 : arg7.IsWhole) (hc0 : ¬cond0_0 i) (hc1 : cond0_1 i)
    (x0 : Vec F S1x1024x1024 .f32) (x1 : Vec F S1x512x1024 .bf16) (x2 : Vec F S1x1024x512 .bf16) (acc : Vec F S1024x1024 .f32) :
    out0_C_3 c i arg3 harg3 arg4 harg4 arg5 harg5 arg6 harg6 arg7 harg7 hc0 hc1 x0 x1 x2 acc = k0_pay3 (k0_pay2 x0 x1 x2 acc) := by
  unfold out0_C_3
  rw [View.read_writes_eq_canon _ _ _ (cover0_C_3 c i arg3 harg3 arg4 harg4 arg5 harg5 arg6 harg6 arg7 harg7 hc0 hc1 x0 x1 x2 acc)]
  unfold kernelRun0_C
  dsimp only
  sl_unfold_words

  rw [View.canon_unit_zero hz3, View.readCov_unit_zero (S := S1024x1024) _ hz2]
  simp only [View.readAt_eq_ld, harg3.read_unread, harg4.read_unread, harg5.read_unread, harg7.read_unread,
    View.ld_unit_zero (S := S1x1024x1024) hz3, View.ld_unit_zero (S := S1x512x1024) hz3,
    View.ld_unit_zero (S := S1x1024x512) hz3, View.ld_unit_zero (S := S1024x1024) hz2]

/-- At the first hidden tile the body zeroes the accumulator, reads the zeros back, and leaves the step's payload over
    the zero block. -/
theorem scratch_A (c : Dev nD) (i : grid0.Coords) (arg3 : Memref sig .tc .vmem S1x1024x1024 .f32) (harg3 : arg3.IsWhole) (arg4 : Memref sig .tc .vmem S1x512x1024 .bf16) (harg4 : arg4.IsWhole) (arg5 : Memref sig .tc .vmem S1x1024x512 .bf16) (harg5 : arg5.IsWhole) (arg6 : Memref sig .tc .vmem S1x1024x1024 .f32) (harg6 : arg6.IsWhole) (arg7 : Memref sig .tc .vmem S1024x1024 .f32) (harg7 : arg7.IsWhole) (hc0 : cond0_0 i) (hc1 : ¬cond0_1 i)
    (x0 : Vec F S1x1024x1024 .f32) (x1 : Vec F S1x512x1024 .bf16) (x2 : Vec F S1x1024x512 .bf16) :
    sout0_A_0 c i arg3 harg3 arg4 harg4 arg5 harg5 arg6 harg6 arg7 harg7 hc0 hc1 x0 x1 x2 = k0_pay2 x0 x1 x2 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words

  rw [View.canon_cons_unit_zero (S := S1024x1024) hz2, View.readCov_unit_zero (S := S1024x1024) _ hz2]
  simp only [View.readAt_eq_ld, harg3.read_unread, harg4.read_unread, harg5.read_unread, harg7.read_unread,
    View.ld_unit_zero (S := S1x1024x1024) hz3, View.ld_unit_zero (S := S1x512x1024) hz3,
    View.ld_unit_zero (S := S1x1024x512) hz3, View.ld_unit_zero (S := S1024x1024) hz2]

end Cert.Ffn.Cases

end
-- ==== Proof.LibDotRows.lean ====
/-
  A product of an `[m, k]` array by an `[n, k]` array over their SHARED LAST axis (rows against rows), read at an
  output index `(p, e)` on the extended reals as the plain sum `∑ⱼ A[p, j] · B[e, j]` over `j : Fin k` — for the
  vector unit's matrix product into a zero accumulator, whatever the two operands' float formats. The dimension
  numbers enter only through four facts: where they send an output index and a contraction index in each operand.
-/
import Idealize.ShloMosaic.PureOps.Ideal
import Idealize.ShloMosaic.PureOps.Ideal.Laws
import Idealize.ShloMosaic.Lib.ValueIdx

noncomputable section

open scoped BigOperators

namespace Cert.LibDotRows

open Idealize.ShloMosaic Idealize.ShloMosaic.ValueIdx

/-- The sum over the contraction index, re-indexed by the contracted axis's one coordinate. -/
theorem contract_sum_rows {m k n : ℕ} {φ₁ φ₂ : FTy} (D : DotDims ⟨2, ![m, k]⟩ ⟨2, ![n, k]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (A : FVec Ideal ⟨2, ![m, k]⟩ φ₁) (B : FVec Ideal ⟨2, ![n, k]⟩ φ₂) (p : Fin m) (e : Fin n) :
    ∑ q : D.contr.Idx, A (D.lhsIdx (ix2 p e) q) * B (D.rhsIdx (ix2 p e) q) = ∑ j : Fin k, A (ix2 p j) * B (ix2 e j) := by
  rw [← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 e j := funext fun a => Fin.ext (by
    match a with
    | ⟨0, _⟩ => exact hr0 _ _
    | ⟨1, _⟩ => exact (hr1 _ _).trans hk)
  rw [el, er]

/-- The vector unit's matrix product of rows against rows into the zero accumulator, at `(p, e)`. -/
theorem matmul_zero_rows_apply {m k n : ℕ} {φ₁ φ₂ : FTy} (D : DotDims ⟨2, ![m, k]⟩ ⟨2, ![n, k]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (prec : Option ContractPrecision) (A : FVec Ideal ⟨2, ![m, k]⟩ φ₁) (B : FVec Ideal ⟨2, ![n, k]⟩ φ₂)
    (p : Fin m) (e : Fin n) :
    FloatOps.matmul D prec A B (constant ⟨2, ![m, n]⟩ .f32 0x00000000#32) (ix2 p e) = ∑ j : Fin k, A (ix2 p j) * B (ix2 e j) :=
  (Ideal.matmul_constant_zero_apply D prec A B (ix2 p e)).trans (contract_sum_rows D hr hs hl0 hl1 hr0 hr1 A B p e)

end Cert.LibDotRows

end
-- ==== Proof.LibSums.lean ====
/-
  Two re-indexings of finite sums, over any commutative monoid.

  * A sum over the indices of a rank-4 shape whose first two coordinates are fixed (the indices a reduction over
    the two trailing axes sends to one result index) is the double sum over the two trailing coordinates.
  * A sum over `Fin N` with `N = T * R` is the sum over `T` tiles of the sum over the `R` positions inside a tile,
    position `r` of tile `t` being `R * t + r`.
-/
import Idealize.ShloMosaic.Lib.ValueIdx
import Idealize.ShloMosaic.PureOps.Reduce

noncomputable section

open scoped BigOperators

namespace Cert.LibSums

open Idealize.ShloMosaic Idealize.ShloMosaic.ValueIdx

/-- Position `r` of tile `t` lies below `T * R`. -/
theorem tile_lt {T R N : Nat} (hN : T * R = N) (t : Fin T) (r : Fin R) : R * t.val + r.val < N := by
  have h1 : R * t.val + r.val < R * (t.val + 1) := by rw [Nat.mul_succ]; exact Nat.add_lt_add_left r.isLt _
  have h2 : R * (t.val + 1) ≤ R * T := Nat.mul_le_mul_left R (Nat.succ_le_of_lt t.isLt)
  rw [← hN, Nat.mul_comm T R]; exact Nat.lt_of_lt_of_le h1 h2

/-- A sum over `N = T * R` positions, tile by tile. -/
theorem sum_by_tiles {M : Type*} [AddCommMonoid M] {T R N : Nat} (hN : T * R = N) (f : Fin N → M) :
    ∑ h : Fin N, f h = ∑ t : Fin T, ∑ r : Fin R, f ⟨R * t.val + r.val, tile_lt hN t r⟩ := by
  subst hN
  rw [← Equiv.sum_comp (finProdFinEquiv (m := T) (n := R)) f, Fintype.sum_prod_type]
  refine Finset.sum_congr rfl fun t _ => Finset.sum_congr rfl fun r _ => congrArg f (Fin.ext ?_)
  show r.val + R * t.val = R * t.val + r.val
  omega

/-- The indices of a rank-4 shape that a reduction over axes 2 and 3 sends to `(p, q)`, summed, are the two
    trailing coordinates, summed. -/
theorem sum_filter_drop_last2 {M : Type*} [AddCommMonoid M] {n0 n1 A B : Nat}
    (h : (⟨4, ![n0, n1, A, B]⟩ : Shape).Reduces [2, 3] ⟨2, ![n0, n1]⟩)
    (x : (⟨4, ![n0, n1, A, B]⟩ : Shape).Idx → M) (p : Fin n0) (q : Fin n1) :
    ∑ i ∈ Finset.univ.filter (fun i => h.drop i = ix2 p q), x i = ∑ a : Fin A, ∑ b : Fin B, x (ix4 p q a b) := by
  have hd0 : ∀ i, ((h.drop i 0 : Fin n0) : Nat) = ((i 0 : Fin n0) : Nat) := fun i => rfl
  have hd1 : ∀ i, ((h.drop i 1 : Fin n1) : Nat) = ((i 1 : Fin n1) : Nat) := fun i => rfl
  rw [← Finset.sum_product']
  refine Finset.sum_nbij' (fun i => ((i 2 : Fin A), (i 3 : Fin B))) (fun ab => ix4 p q ab.1 ab.2) ?_ ?_ ?_ ?_ ?_
  · intro i _; exact Finset.mem_product.2 ⟨Finset.mem_univ _, Finset.mem_univ _⟩
  · intro ab _
    refine Finset.mem_filter.2 ⟨Finset.mem_univ _, funext fun b => Fin.ext ?_⟩
    match b with
    | ⟨0, _⟩ => exact hd0 _
    | ⟨1, _⟩ => exact hd1 _
  · intro i hi
    have hj := (Finset.mem_filter.1 hi).2
    have e0 : (i 0 : Fin n0) = p := Fin.ext ((hd0 i).symm.trans (congrArg (fun j : (⟨2, ![n0, n1]⟩ : Shape).Idx => ((j 0 : Fin n0) : Nat)) hj))
    have e1 : (i 1 : Fin n1) = q := Fin.ext ((hd1 i).symm.trans (congrArg (fun j : (⟨2, ![n0, n1]⟩ : Shape).Idx => ((j 1 : Fin n1) : Nat)) hj))
    show ix4 p q (i 2) (i 3) = i
    rw [← e0, ← e1]; exact (eq_ix4 i).symm
  · intro ab _; rfl
  · intro i hi
    have hj := (Finset.mem_filter.1 hi).2
    have e0 : (i 0 : Fin n0) = p := Fin.ext ((hd0 i).symm.trans (congrArg (fun j : (⟨2, ![n0, n1]⟩ : Shape).Idx => ((j 0 : Fin n0) : Nat)) hj))
    have e1 : (i 1 : Fin n1) = q := Fin.ext ((hd1 i).symm.trans (congrArg (fun j : (⟨2, ![n0, n1]⟩ : Shape).Idx => ((j 1 : Fin n1) : Nat)) hj))
    show x i = x (ix4 p q (i 2) (i 3))
    rw [← e0, ← e1]; exact congrArg x (eq_ix4 i)

end Cert.LibSums

end
-- ==== Proof.Spec.lean ====
/-
  What the expert network computes, as one function of its three arrays over the extended reals.

  For expert `e`, token `t` and output feature `d`:

      out[e, t, d] = ∑ₕ max(∑ⱼ x[e, t, j] · w₁[e, h, j], 0) · w₂[e, d, h]        (h over the 4096 hidden units, j over 1024)

  — a first layer of rows against rows, the positive part, a second layer of rows against rows. The zero the
  positive part is taken against is kept as the float word it is written with (the same word on both sides of every
  comparison made with this function, so it is never evaluated).

  The sum over the 4096 hidden units splits into 8 tiles of 512: hidden unit `512·s + q` is position `q` of tile `s`.
  This is a regrouping of a finite sum in a commutative monoid, so it holds at infinite entries as well.
-/
import Idealize.ShloMosaic.PureOps.Ideal
import Idealize.ShloMosaic.Lib.ValueIdx
import proofs.«177868_j35948876267749_2_alg».proof.Proof.LibSums

noncomputable section

open scoped BigOperators

namespace Cert.Ffn

open Idealize.ShloMosaic Idealize.ShloMosaic.ValueIdx

/-- The zero the positive part is taken against: the float word `+0.0`. -/
abbrev zeroWord : EReal := Ideal.ofBits .f32 0x00000000#32

/-- Hidden unit `h` of expert `e` at token `t`: the positive part of the token's row against the unit's row. -/
def hidden (x : FVec Ideal ⟨3, ![8, 2048, 1024]⟩ .f32) (w1 : FVec Ideal ⟨3, ![8, 4096, 1024]⟩ .f32)
    (e : Fin 8) (t : Fin 2048) (h : Fin 4096) : EReal :=
  max (∑ j : Fin 1024, x (ix3 e t j) * w1 (ix3 e h j)) zeroWord

/-- The network's output: the hidden units against the rows of the second layer. -/
def ffn (x : FVec Ideal ⟨3, ![8, 2048, 1024]⟩ .f32) (w1 : FVec Ideal ⟨3, ![8, 4096, 1024]⟩ .f32)
    (w2 : FVec Ideal ⟨3, ![8, 1024, 4096]⟩ .f32) : FVec Ideal ⟨3, ![8, 2048, 1024]⟩ .f32 :=
  fun i => ∑ h : Fin 4096, hidden x w1 (i 0) (i 1) h * w2 (ix3 (i 0) (i 2) h)

/-- Position `q` of hidden tile `s` is a hidden unit. -/
theorem unit_lt (s : Fin 8) (q : Fin 512) : 512 * s.val + q.val < 4096 :=
  LibSums.tile_lt (T := 8) (R := 512) (N := 4096) (by norm_num) s q

/-- Hidden unit `512·s + q`. -/
abbrev unit (s : Fin 8) (q : Fin 512) : Fin 4096 := ⟨512 * s.val + q.val, unit_lt s q⟩

/-- One hidden tile's share of an output entry. -/
def tileShare (x : FVec Ideal ⟨3, ![8, 2048, 1024]⟩ .f32) (w1 : FVec Ideal ⟨3, ![8, 4096, 1024]⟩ .f32)
    (w2 : FVec Ideal ⟨3, ![8, 1024, 4096]⟩ .f32) (e : Fin 8) (t : Fin 2048) (d : Fin 1024) (s : Fin 8) : EReal :=
  ∑ q : Fin 512, hidden x w1 e t (unit s q) * w2 (ix3 e d (unit s q))

/-- An output entry is the sum of the eight hidden tiles' shares. -/
theorem ffn_by_tiles (x : FVec Ideal ⟨3, ![8, 2048, 1024]⟩ .f32) (w1 : FVec Ideal ⟨3, ![8, 4096, 1024]⟩ .f32)
    (w2 : FVec Ideal ⟨3, ![8, 1024, 4096]⟩ .f32) (e : Fin 8) (t : Fin 2048) (d : Fin 1024) :
    ffn x w1 w2 (ix3 e t d) = ∑ s : Fin 8, tileShare x w1 w2 e t d s :=
  LibSums.sum_by_tiles (T := 8) (R := 512) (N := 4096) (by norm_num)
    (fun h : Fin 4096 => hidden x w1 e t h * w2 (ix3 e d h))

end Cert.Ffn

end
-- ==== Proof.Step.lean ====
/-
  One grid step of the kernel, read at an entry, on the extended reals.

  The step takes a block of 1024 tokens, one tile of 512 hidden units' first-layer rows, the same tile's columns of
  the second layer (1024 output features by 512 hidden units), and the accumulator. It forms the 1024-by-512 block of
  first-layer products (rows against rows, into zeros), takes its positive part, multiplies by the second-layer tile
  (again rows against rows, into zeros), and adds the result to the accumulator. Changes of float format are the
  identity on the extended reals, and the blocks' leading unit axis is dropped by a cast that reads `(0, a, b)` at
  `(a, b)`. So at entry `(p, d)` the step leaves

      acc[p, d] + ∑_q max(∑ⱼ x[0, p, j] · w₁[0, q, j], 0) · w₂[0, d, q]      (q over the tile's 512 units, j over 1024).

  The block the first step starts from is all zeros, and the output block is the accumulator with a leading unit axis.
-/
import proofs.«177868_j35948876267749_2_alg».proof.Proof.Gen.KernelIdeal.Skeleton
import proofs.«177868_j35948876267749_2_alg».proof.Proof.LibDotRows
import proofs.«177868_j35948876267749_2_alg».proof.Proof.Spec
import Idealize.ShloMosaic.Lib.Pipeline.Value
import Idealize.ShloMosaic.Lib.ValueIdx
import Idealize.ShloMosaic.PureOps.Ideal.Laws

noncomputable section

open scoped BigOperators

namespace Cert.Ffn.Step

open Idealize.ShloMosaic Idealize.ShloMosaic.ValueIdx Cert.KernelIdeal Cert.KernelIdeal.Gen

/-- An index `(a, b)` under a leading zero is `(0, a, b)`. -/
theorem cons_zero_ix2 {n0 n1 : Nat} (a : Fin n0) (b : Fin n1) :
    (Fin.cons (⟨0, Nat.one_pos⟩ : Fin 1) (ix2 a b) : (⟨3, ![1, n0, n1]⟩ : Shape).Idx) = ix3 (⟨0, Nat.one_pos⟩ : Fin 1) a b :=
  funext fun k => by match k with | ⟨0, _⟩ => rfl | ⟨1, _⟩ => rfl | ⟨2, _⟩ => rfl

/-- A block `[1, a, b]` viewed as `[a, b]` reads `(0, p, q)` at `(p, q)`. -/
theorem dropLead_apply {n0 n1 : Nat} {α : Type} (v : (⟨3, ![1, n0, n1]⟩ : Shape).Idx → α)
    (h : (⟨3, ![1, n0, n1]⟩ : Shape).ShapeCasts ⟨2, ![n0, n1]⟩) (a : Fin n0) (b : Fin n1) :
    shapeCast ⟨2, ![n0, n1]⟩ v h (ix2 a b) = v (ix3 (⟨0, Nat.one_pos⟩ : Fin 1) a b) :=
  (shapeCast_dropUnit_apply ![n0, n1] v h (ix2 a b)).trans (congrArg v (cons_zero_ix2 a b))

section Products

/-- The first-layer product contracts the last axis of both operands: where its dimension numbers send an output
    index and a contraction index. -/
theorem first_rank : dot_S1024x1024_S512x1024_S1024x512_1_1_0_0_n_n.contr.rank = 1 := rfl
theorem first_size : dot_S1024x1024_S512x1024_S1024x512_1_1_0_0_n_n.contr.size ⟨0, by decide⟩ = 1024 := rfl
theorem first_l0 (i : S1024x512.Idx) (q : dot_S1024x1024_S512x1024_S1024x512_1_1_0_0_n_n.contr.Idx) :
    (dot_S1024x1024_S512x1024_S1024x512_1_1_0_0_n_n.lhsIdx i q 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
theorem first_l1 (i : S1024x512.Idx) (q : dot_S1024x1024_S512x1024_S1024x512_1_1_0_0_n_n.contr.Idx) :
    (dot_S1024x1024_S512x1024_S1024x512_1_1_0_0_n_n.lhsIdx i q 1).val = (q ⟨0, by decide⟩).val :=
  dot_S1024x1024_S512x1024_S1024x512_1_1_0_0_n_n.lhsIdx_val_of_single rfl i q
theorem first_r0 (i : S1024x512.Idx) (q : dot_S1024x1024_S512x1024_S1024x512_1_1_0_0_n_n.contr.Idx) :
    (dot_S1024x1024_S512x1024_S1024x512_1_1_0_0_n_n.rhsIdx i q 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
theorem first_r1 (i : S1024x512.Idx) (q : dot_S1024x1024_S512x1024_S1024x512_1_1_0_0_n_n.contr.Idx) :
    (dot_S1024x1024_S512x1024_S1024x512_1_1_0_0_n_n.rhsIdx i q 1).val = (q ⟨0, by decide⟩).val :=
  dot_S1024x1024_S512x1024_S1024x512_1_1_0_0_n_n.rhsIdx_val_of_single rfl i q

/-- The second-layer product likewise. -/
theorem second_rank : dot_S1024x512_S1024x512_S1024x1024_1_1_0_0_n_n.contr.rank = 1 := rfl
theorem second_size : dot_S1024x512_S1024x512_S1024x1024_1_1_0_0_n_n.contr.size ⟨0, by decide⟩ = 512 := rfl
theorem second_l0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem second_l1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
theorem second_r0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem second_r1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

end Products

/-- The tile's partial product at entry `(p, d)`: over the tile's 512 hidden units, the positive part of the token
    row against the unit's first-layer row, times the unit's second-layer weight for feature `d`. -/
def tilePart (x : Vec Ideal S1x1024x1024 .f32) (w1 : Vec Ideal S1x512x1024 .bf16) (w2 : Vec Ideal S1x1024x512 .bf16)
    (p d : Fin 1024) : EReal :=
  ∑ q : Fin 512, max (∑ j : Fin 1024, x (ix3 (⟨0, Nat.one_pos⟩ : Fin 1) p j) * w1 (ix3 (⟨0, Nat.one_pos⟩ : Fin 1) q j)) Cert.Ffn.zeroWord
    * w2 (ix3 (⟨0, Nat.one_pos⟩ : Fin 1) d q)

/-- The step at an entry: the accumulator's entry plus the tile's partial product. -/
theorem step_apply (x : Vec Ideal S1x1024x1024 .f32) (w1 : Vec Ideal S1x512x1024 .bf16) (w2 : Vec Ideal S1x1024x512 .bf16)
    (acc : Vec Ideal S1024x1024 .f32) (p d : Fin 1024) :
    k0_pay2 (F := Ideal) x w1 w2 acc (ix2 p d) = acc (ix2 p d) + tilePart x w1 w2 p d := by
  unfold k0_pay2
  refine (congrFun (shapeCast_self _ _) (ix2 p d)).trans ?_
  refine congrArg (acc (ix2 p d) + ·) ?_
  refine (Cert.LibDotRows.matmul_zero_rows_apply dot_S1024x512_S1024x512_S1024x1024_1_1_0_0_n_n second_rank second_size
    second_l0 second_l1 second_r0 second_r1 none _ _ p d).trans ?_
  unfold tilePart
  refine Finset.sum_congr rfl fun q _ => ?_
  refine congrArg₂ (· * ·) ?_ (dropLead_apply w2 _ d q)
  refine congrArg (max · Cert.Ffn.zeroWord) ?_
  refine (Cert.LibDotRows.matmul_zero_rows_apply dot_S1024x1024_S512x1024_S1024x512_1_1_0_0_n_n first_rank first_size
    first_l0 first_l1 first_r0 first_r1 none _ _ p q).trans ?_
  exact Finset.sum_congr rfl fun j _ => congrArg₂ (· * ·) (dropLead_apply x _ p j) (dropLead_apply w1 _ q j)

/-- The same at an entry given as one index. -/
theorem step_at (x : Vec Ideal S1x1024x1024 .f32) (w1 : Vec Ideal S1x512x1024 .bf16) (w2 : Vec Ideal S1x1024x512 .bf16)
    (acc : Vec Ideal S1024x1024 .f32) (y : S1024x1024.Idx) :
    k0_pay2 (F := Ideal) x w1 w2 acc y = acc y + tilePart x w1 w2 (y 0) (y 1) :=
  calc k0_pay2 (F := Ideal) x w1 w2 acc y
      = k0_pay2 (F := Ideal) x w1 w2 acc (ix2 (y 0) (y 1)) := congrArg _ (eq_ix2 y)
    _ = acc (ix2 (y 0) (y 1)) + tilePart x w1 w2 (y 0) (y 1) := step_apply x w1 w2 acc (y 0) (y 1)
    _ = acc y + tilePart x w1 w2 (y 0) (y 1) := congrArg (fun z => acc z + tilePart x w1 w2 (y 0) (y 1)) (eq_ix2 y).symm

/-- The block the first step starts from is zero at every entry. -/
theorem start_apply (y : S1024x1024.Idx) : k0_pay1 (F := Ideal) y = 0 :=
  Ideal.ofBits_zero_f32

/-- The output block is the accumulator under a leading unit axis. -/
theorem lead_apply (acc : Vec Ideal S1024x1024 .f32) (y : S1x1024x1024.Idx) :
    k0_pay3 (F := Ideal) acc y = acc (ix2 (y 1) (y 2)) := by
  unfold k0_pay3
  refine (shapeCast_addUnit_apply ![1024, 1024] acc _ y).trans (congrArg acc ?_)
  exact funext fun k => by match k with | ⟨0, _⟩ => rfl | ⟨1, _⟩ => rfl

end Cert.Ffn.Step

end
-- ==== Proof.Accum.lean ====
/-
  The accumulator over one run of eight hidden tiles.

  The 128 grid points come in 16 runs of 8 consecutive points, one run per (expert, token block); point `8·r + s` of
  run `r` works on hidden tile `s`. Call a point's SHARE the tile's partial product over the three input blocks the
  point is given. The first point of a run zeroes the accumulator and leaves `0 + share`; every later point leaves
  what the point before left plus its own share. So after the run's last point the accumulator holds, entry by entry,
  the sum of the run's eight shares — an unrolling of the fold that needs only that addition on the extended reals is
  associative with unit `0`.
-/
import proofs.«177868_j35948876267749_2_alg».proof.Proof.Gen.KernelIdeal.Value
import proofs.«177868_j35948876267749_2_alg».proof.Proof.Cases
import proofs.«177868_j35948876267749_2_alg».proof.Proof.Step

noncomputable section

open scoped BigOperators

namespace Cert.Ffn.Accum

open Idealize.ShloMosaic Idealize.ShloMosaic.TcCoe Idealize.SL.Sem Idealize.ShloMosaic.ValueIdx
open Cert.KernelIdeal Cert.KernelIdeal.Gen Cert.KernelIdeal.Value

variable (m : (ℓ : Loc nD τ sig) → Buf (Elt Ideal) ℓ)

/-- Point `n`'s share of the accumulator's entry `y`: the tile's partial product over the point's three input blocks
    (zero past the grid, where no point is). -/
def share (c : Dev nD) (n : ℕ) (y : S1024x1024.Idx) : EReal :=
  if hb : n < cfg0.N then Step.tilePart (iblk m c 0 ⟨n, hb⟩) (iblk m c 1 ⟨n, hb⟩) (iblk m c 2 ⟨n, hb⟩) (y 0) (y 1) else 0

theorem share_of_lt (c : Dev nD) (n : ℕ) (hb : n < cfg0.N) (y : S1024x1024.Idx) :
    share m c n y = Step.tilePart (iblk m c 0 ⟨n, hb⟩) (iblk m c 1 ⟨n, hb⟩) (iblk m c 2 ⟨n, hb⟩) (y 0) (y 1) := dif_pos hb

/-- The first point of a run leaves `0 + share`, whatever the accumulator held. -/
theorem first_tile (c : Dev nD) (n : ℕ) (hb : n < cfg0.N) (h0 : n % 8 = 0) (acc : Vec Ideal S1024x1024 .f32)
    (y : S1024x1024.Idx) : scAt0_0 m c n hb acc y = 0 + share m c n y := by
  unfold scAt0_0
  rw [dif_pos h0, dif_neg (by omega : ¬n % 8 = 7)]
  refine (congrFun (Cases.scratch_A c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) _ _ (iblk m c 0 ⟨n, hb⟩) (iblk m c 1 ⟨n, hb⟩) (iblk m c 2 ⟨n, hb⟩)) y).trans ?_
  refine (Step.step_at (iblk m c 0 ⟨n, hb⟩) (iblk m c 1 ⟨n, hb⟩) (iblk m c 2 ⟨n, hb⟩) (k0_pay1 (F := Ideal)) y).trans ?_
  rw [Step.start_apply, share_of_lt m c n hb]

/-- Every later point of a run leaves what the point before left plus its share. -/
theorem later_tile (c : Dev nD) (n : ℕ) (hb : n < cfg0.N) (h0 : ¬n % 8 = 0) (acc : Vec Ideal S1024x1024 .f32)
    (y : S1024x1024.Idx) : scAt0_0 m c n hb acc y = acc y + share m c n y := by
  unfold scAt0_0
  rw [dif_neg h0]
  by_cases h1 : n % 8 = 7
  · rw [dif_pos h1]
    refine (congrFun (Cases.scratch_C c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) _ _ (iblk m c 0 ⟨n, hb⟩) (iblk m c 1 ⟨n, hb⟩) (iblk m c 2 ⟨n, hb⟩) acc) y).trans ?_
    refine (Step.step_at (iblk m c 0 ⟨n, hb⟩) (iblk m c 1 ⟨n, hb⟩) (iblk m c 2 ⟨n, hb⟩) acc y).trans ?_
    rw [share_of_lt m c n hb]
  · rw [dif_neg h1]
    refine (congrFun (Cases.scratch_B c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) _ _ (iblk m c 0 ⟨n, hb⟩) (iblk m c 1 ⟨n, hb⟩) (iblk m c 2 ⟨n, hb⟩) acc) y).trans ?_
    refine (Step.step_at (iblk m c 0 ⟨n, hb⟩) (iblk m c 1 ⟨n, hb⟩) (iblk m c 2 ⟨n, hb⟩) acc y).trans ?_
    rw [share_of_lt m c n hb]

/-- After the last point of a run the accumulator holds the sum of the run's eight shares. -/
theorem run_sum (c : Dev nD) (t : Fin cfg0.N) (h7 : t.val % 8 = 7) (y : S1024x1024.Idx) :
    (outsAt0 m c t.val t.isLt).2 y = ∑ s ∈ Finset.range 8, share m c (8 * (t.val / 8) + s) y := by
  refine (congrFun (soutsAt0_0_eq m c t) y).trans ?_
  refine (Pipeline.accAt_add_apply (ι := S1024x1024.Idx) (β := EReal)
    (fun n h => scAt0_0 m c n h (VS0_0.read (Elt Ideal) VS0_0.junk)) (scAt0_0 m c) (fun _ => (0 : EReal)) (share m c)
    (8 * (t.val / 8)) 7
    (fun h i => first_tile m c (8 * (t.val / 8)) h (Nat.mul_mod_right 8 (t.val / 8)) _ i)
    (fun n h acc i hlo hhi => later_tile m c n h (by omega) acc i)
    (t.val % 8) (by omega) _ y).trans ?_
  rw [h7, zero_add]

end Cert.Ffn.Accum

end
-- ==== Proof.Blocks.lean ====
/-
  Where the blocks sit in the arrays.

  Grid point `n` (of 128, the hidden tile varying fastest) works on expert `n / 16`, token block `(n / 8) % 2` and hidden
  tile `n % 8`. Its token block is rows `1024·b … 1024·b + 1023` of the expert's tokens; its first-layer block is rows
  `512·s … 512·s + 511` of the expert's first-layer weights; its second-layer block is columns `512·s … 512·s + 511` of
  the expert's second-layer weights; its output block is the token block's rows of the result. An entry of a block
  sits in its array, on each axis, at the block's index times the block's extent plus the entry's own coordinate.

  The two weight arrays reach the kernel through a change of float format made before the launch, which is the
  identity on the extended reals: the kernel reads the arguments themselves.
-/
import proofs.«177868_j35948876267749_2_alg».proof.Proof.Gen.KernelIdeal.Value
import proofs.«177868_j35948876267749_2_alg».proof.Proof.Accum
import proofs.«177868_j35948876267749_2_alg».proof.Proof.Spec
import Idealize.ShloMosaic.Lib.StableHlo.Run

noncomputable section

open scoped BigOperators

namespace Cert.Ffn.Blocks

open Idealize.ShloMosaic Idealize.ShloMosaic.TcCoe Idealize.SL.Sem Idealize.ShloMosaic.ValueIdx
open Cert.KernelIdeal Cert.KernelIdeal.Gen Cert.KernelIdeal.Value

variable (m : (ℓ : Loc nD τ sig) → Buf (Elt Ideal) ℓ)

/-- The four index maps, decided once over the grid: expert `n / 16`, token block `(n / 8) % 2`, hidden tile `n % 8`. -/
theorem idx_facts : ∀ t : Fin cfg0.N,
    win0_0.index t (0 : Fin 3) = t.val / 16 ∧ win0_0.index t (1 : Fin 3) = t.val / 8 % 2 ∧ win0_0.index t (2 : Fin 3) = 0
    ∧ win0_1.index t (0 : Fin 3) = t.val / 16 ∧ win0_1.index t (1 : Fin 3) = t.val % 8 ∧ win0_1.index t (2 : Fin 3) = 0
    ∧ win0_2.index t (0 : Fin 3) = t.val / 16 ∧ win0_2.index t (1 : Fin 3) = 0 ∧ win0_2.index t (2 : Fin 3) = t.val % 8
    ∧ win0_3.index t (0 : Fin 3) = t.val / 16 ∧ win0_3.index t (1 : Fin 3) = t.val / 8 % 2 ∧ win0_3.index t (2 : Fin 3) = 0 :=
  (by decide +kernel : ∀ t : Fin grid0.N, _)

/-- The first-layer weights as the kernel finds them are the argument: the format change before the launch is the
    identity on the extended reals. -/
theorem first_layer_staged (c : Dev nD) :
    (V m c main_v0 : S8x4096x1024.Idx → EReal) = m ((c : Thread nD τ).loc main_arg1) := by
  dsimp only [Gen.V, Gen.hostOps0]; after_results; rfl

/-- The second-layer weights likewise. -/
theorem second_layer_staged (c : Dev nD) :
    (V m c main_v1 : S8x1024x4096.Idx → EReal) = m ((c : Thread nD τ).loc main_arg2) := by
  dsimp only [Gen.V, Gen.hostOps0]; after_results; rfl

/-- The token block at point `n`, entry `(0, p, j)`: token `1024·b + p` of the point's expert, feature `j`. -/
theorem token_block (c : Dev nD) (n : Fin cfg0.N) (e : Fin 8) (T : Fin 2048) (p j : Fin 1024)
    (h0 : win0_0.index n (0 : Fin 3) = e.val) (h1 : win0_0.index n (1 : Fin 3) * 1024 + p.val = T.val)
    (h2 : win0_0.index n (2 : Fin 3) = 0) :
    iblk m c 0 n (ix3 (⟨0, Nat.one_pos⟩ : Fin 1) p j) = m ((c : Thread nD τ).loc main_arg0) (ix3 e T j) := by
  unfold iblk
  rw [View.read_apply]
  show V m c main_arg0 (((cfg0.win 0).blk n).view.emb (ix3 (⟨0, Nat.one_pos⟩ : Fin 1) p j)) = _
  rw [V_main_arg0]
  refine congrArg (m ((c : Thread nD τ).loc main_arg0)) (funext fun a => Fin.ext ?_)
  match a with
  | ⟨0, _⟩ => show win0_0.index n (0 : Fin 3) * 1 + 1 * 0 = e.val; omega
  | ⟨1, _⟩ => show win0_0.index n (1 : Fin 3) * 1024 + 1 * p.val = T.val; omega
  | ⟨2, _⟩ => show win0_0.index n (2 : Fin 3) * 1024 + 1 * j.val = j.val; omega

/-- The first-layer block at point `n`, entry `(0, q, j)`: hidden unit `512·s + q` of the point's expert, feature `j`. -/
theorem first_layer_block (c : Dev nD) (n : Fin cfg0.N) (e : Fin 8) (h : Fin 4096) (q : Fin 512) (j : Fin 1024)
    (h0 : win0_1.index n (0 : Fin 3) = e.val) (h1 : win0_1.index n (1 : Fin 3) * 512 + q.val = h.val)
    (h2 : win0_1.index n (2 : Fin 3) = 0) :
    iblk m c 1 n (ix3 (⟨0, Nat.one_pos⟩ : Fin 1) q j) = m ((c : Thread nD τ).loc main_arg1) (ix3 e h j) := by
  unfold iblk
  rw [View.read_apply]
  show (V m c main_v0 : S8x4096x1024.Idx → EReal) (((cfg0.win 1).blk n).view.emb (ix3 (⟨0, Nat.one_pos⟩ : Fin 1) q j)) = _
  rw [first_layer_staged]
  refine congrArg (m ((c : Thread nD τ).loc main_arg1)) (funext fun a => Fin.ext ?_)
  match a with
  | ⟨0, _⟩ => show win0_1.index n (0 : Fin 3) * 1 + 1 * 0 = e.val; omega
  | ⟨1, _⟩ => show win0_1.index n (1 : Fin 3) * 512 + 1 * q.val = h.val; omega
  | ⟨2, _⟩ => show win0_1.index n (2 : Fin 3) * 1024 + 1 * j.val = j.val; omega

/-- The second-layer block at point `n`, entry `(0, d, q)`: output feature `d`, hidden unit `512·s + q`. -/
theorem second_layer_block (c : Dev nD) (n : Fin cfg0.N) (e : Fin 8) (h : Fin 4096) (d : Fin 1024) (q : Fin 512)
    (h0 : win0_2.index n (0 : Fin 3) = e.val) (h1 : win0_2.index n (1 : Fin 3) = 0)
    (h2 : win0_2.index n (2 : Fin 3) * 512 + q.val = h.val) :
    iblk m c 2 n (ix3 (⟨0, Nat.one_pos⟩ : Fin 1) d q) = m ((c : Thread nD τ).loc main_arg2) (ix3 e d h) := by
  unfold iblk
  rw [View.read_apply]
  show (V m c main_v1 : S8x1024x4096.Idx → EReal) (((cfg0.win 2).blk n).view.emb (ix3 (⟨0, Nat.one_pos⟩ : Fin 1) d q)) = _
  rw [second_layer_staged]
  refine congrArg (m ((c : Thread nD τ).loc main_arg2)) (funext fun a => Fin.ext ?_)
  match a with
  | ⟨0, _⟩ => show win0_2.index n (0 : Fin 3) * 1 + 1 * 0 = e.val; omega
  | ⟨1, _⟩ => show win0_2.index n (1 : Fin 3) * 1024 + 1 * d.val = d.val; omega
  | ⟨2, _⟩ => show win0_2.index n (2 : Fin 3) * 512 + 1 * q.val = h.val; omega

end Cert.Ffn.Blocks

end
-- ==== Proof.KernelValue.lean ====
/-
  The kernel's result array is the network function of its three arguments.

  The output block of (expert `e`, token block `b`) is written back once, at the last hidden tile of its run, and holds
  the accumulator after that run: the sum of the run's eight shares. Entry `(0, p, d)` of that block sits at
  `(e, 1024·b + p, d)` of the result, and the share of the run's point for hidden tile `s` is, read through the blocks'
  positions in the arrays, exactly tile `s`'s share of the network function's entry there. Summed over the eight tiles
  that is the entry itself. Every entry of the result lies in the block of one such write-back — the one of its own
  expert and token block — so after the run the whole array holds the network function.
-/
import proofs.«177868_j35948876267749_2_alg».proof.Proof.Gen.KernelIdeal.Value
import proofs.«177868_j35948876267749_2_alg».proof.Proof.Blocks

noncomputable section

open scoped BigOperators

namespace Cert.Ffn.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value

variable (m : (ℓ : Loc nD τ sig) → Buf (Elt Ideal) ℓ) (ρ : Dev nD → PrngReg)

/-- The network function of the arguments as launched on device `c`. -/
abbrev result (c : Dev nD) : FVec Ideal ⟨3, ![8, 2048, 1024]⟩ .f32 :=
  Cert.Ffn.ffn (m ((c : Thread nD τ).loc main_arg0)) (m ((c : Thread nD τ).loc main_arg1)) (m ((c : Thread nD τ).loc main_arg2))

/-- The index maps at the point numbered `n`. -/
theorem idx_at (n : ℕ) (hn : n < cfg0.N) :
    win0_0.index (⟨n, hn⟩ : Fin cfg0.N) (0 : Fin 3) = n / 16 ∧ win0_0.index (⟨n, hn⟩ : Fin cfg0.N) (1 : Fin 3) = n / 8 % 2
    ∧ win0_0.index (⟨n, hn⟩ : Fin cfg0.N) (2 : Fin 3) = 0
    ∧ win0_1.index (⟨n, hn⟩ : Fin cfg0.N) (0 : Fin 3) = n / 16 ∧ win0_1.index (⟨n, hn⟩ : Fin cfg0.N) (1 : Fin 3) = n % 8
    ∧ win0_1.index (⟨n, hn⟩ : Fin cfg0.N) (2 : Fin 3) = 0
    ∧ win0_2.index (⟨n, hn⟩ : Fin cfg0.N) (0 : Fin 3) = n / 16 ∧ win0_2.index (⟨n, hn⟩ : Fin cfg0.N) (1 : Fin 3) = 0
    ∧ win0_2.index (⟨n, hn⟩ : Fin cfg0.N) (2 : Fin 3) = n % 8
    ∧ win0_3.index (⟨n, hn⟩ : Fin cfg0.N) (0 : Fin 3) = n / 16 ∧ win0_3.index (⟨n, hn⟩ : Fin cfg0.N) (1 : Fin 3) = n / 8 % 2
    ∧ win0_3.index (⟨n, hn⟩ : Fin cfg0.N) (2 : Fin 3) = 0 :=
  Blocks.idx_facts ⟨n, hn⟩

/-- A point's share of accumulator entry `(p, d)` is its hidden tile's share of the network function's entry at the
    point's expert, token `1024·b + p` and feature `d`. -/
theorem share_eq (c : Dev nD) (n : ℕ) (hn : n < cfg0.N) (e : Fin 8) (b : Fin 2) (s : Fin 8) (T : Fin 2048) (p d : Fin 1024)
    (he : n / 16 = e.val) (hb : n / 8 % 2 = b.val) (hs : n % 8 = s.val) (hT : 1024 * b.val + p.val = T.val) :
    Accum.share m c n (ix2 p d) = Cert.Ffn.tileShare (m ((c : Thread nD τ).loc main_arg0)) (m ((c : Thread nD τ).loc main_arg1)) (m ((c : Thread nD τ).loc main_arg2)) e T d s := by
  obtain ⟨a0, a1, a2, b0, b1, b2, c0, c1, c2, -⟩ := idx_at n hn
  rw [Accum.share_of_lt m c n hn]
  show Step.tilePart (iblk m c 0 ⟨n, hn⟩) (iblk m c 1 ⟨n, hn⟩) (iblk m c 2 ⟨n, hn⟩) p d = _
  unfold Step.tilePart Cert.Ffn.tileShare Cert.Ffn.hidden
  refine Finset.sum_congr rfl fun q _ => ?_
  have hu : (Cert.Ffn.unit s q).val = 512 * s.val + q.val := rfl
  rw [Blocks.second_layer_block m c ⟨n, hn⟩ e (Cert.Ffn.unit s q) d q (by omega) (by omega) (by omega)]
  refine congrArg (· * (m ((c : Thread nD τ).loc main_arg2)) (ix3 e d (Cert.Ffn.unit s q))) ?_
  refine congrArg (max · Cert.Ffn.zeroWord) ?_
  refine Finset.sum_congr rfl fun j _ => ?_
  rw [Blocks.token_block m c ⟨n, hn⟩ e T p j (by omega) (by omega) (by omega),
    Blocks.first_layer_block m c ⟨n, hn⟩ e (Cert.Ffn.unit s q) q j (by omega) (by omega) (by omega)]

/-- At the last hidden tile the output block is the accumulator the same step leaves, under a leading unit axis. -/
theorem out_last (c : Dev nD) (t : Fin cfg0.N) (h0 : ¬t.val % 8 = 0) (h7 : t.val % 8 = 7) :
    (outsAt0 m c t.val t.isLt).1 = k0_pay3 ((outsAt0 m c t.val t.isLt).2) := by
  rw [outsAt0_C m c t h0 h7]
  dsimp only
  rw [Cases.out_C, Cases.scratch_C]

/-- What a flushing point writes back is its block of the network function. -/
theorem flushed_eq (c : Dev nD) (t : Fin cfg0.N) (hf : (cfg0.win 3).flush t = true) :
    (dats m 0 c).flushed 3 t = ((cfg0.win 3).blk t).view.read (Elt Ideal) (result m c) := by
  have h7 : t.val % 8 = 7 := (flush0_3 t).mp hf
  have hN : t.val < 128 := lt_of_lt_of_eq t.isLt N_0
  have h0 : ¬t.val % 8 = 0 := by omega
  obtain ⟨-, -, -, -, -, -, -, -, -, o0, o1, o2⟩ := Blocks.idx_facts t
  rw [flushed3, out_last m c t h0 h7]
  funext y
  have hy0 : (y 0).val < 1 := (y 0).isLt
  have hy1 : (y 1).val < 1024 := (y 1).isLt
  have hy2 : (y 2).val < 1024 := (y 2).isLt
  let e : Fin 8 := ⟨t.val / 16, by omega⟩
  let b : Fin 2 := ⟨t.val / 8 % 2, by omega⟩
  let p : Fin 1024 := ⟨(y 1).val, hy1⟩
  let d : Fin 1024 := ⟨(y 2).val, hy2⟩
  let T : Fin 2048 := ⟨1024 * (t.val / 8 % 2) + (y 1).val, by omega⟩
  have hemb : ((cfg0.win 3).blk t).view.emb y = ix3 e T d := funext fun a => Fin.ext (by
    match a with
    | ⟨0, _⟩ => show win0_3.index t (0 : Fin 3) * 1 + 1 * (y 0).val = t.val / 16; omega
    | ⟨1, _⟩ => show win0_3.index t (1 : Fin 3) * 1024 + 1 * (y 1).val = 1024 * (t.val / 8 % 2) + (y 1).val; omega
    | ⟨2, _⟩ => show win0_3.index t (2 : Fin 3) * 1024 + 1 * (y 2).val = (y 2).val; omega)
  show k0_pay3 (F := Ideal) ((outsAt0 m c t.val t.isLt).2) y = result m c (((cfg0.win 3).blk t).view.emb y)
  refine Eq.trans ?_ (congrArg (result m c) hemb.symm)
  show _ = Cert.Ffn.ffn (m ((c : Thread nD τ).loc main_arg0)) (m ((c : Thread nD τ).loc main_arg1)) (m ((c : Thread nD τ).loc main_arg2)) (ix3 e T d)
  rw [Step.lead_apply, Accum.run_sum m c t h7, Cert.Ffn.ffn_by_tiles, Finset.sum_range]
  refine Finset.sum_congr rfl fun s _ => ?_
  have hs : s.val < 8 := s.isLt
  exact share_eq m c (8 * (t.val / 8) + s.val) (by omega) e b s T p d (by show _ = t.val / 16; omega)
    (by show _ = t.val / 8 % 2; omega) (by omega) rfl

/-- An index of the result is in point `t`'s block iff each coordinate is in the block's range on its axis. -/
theorem mem_blk (t : Fin cfg0.N) (i : S8x2048x1024.Idx) :
    i ∈ ((cfg0.win 3).blk t).view.set ↔ ∀ a : Fin 3, win0_3.index t a * S1x1024x1024.size a ≤ (i a).val
      ∧ (i a).val < win0_3.index t a * S1x1024x1024.size a + S1x1024x1024.size a := by
  show i ∈ ((View.whole main_v2).slice (win0_3.rect t)).set ↔ _
  rw [View.set_slice_whole, Rect.mem_set_unit]
  exact Iff.rfl

/-- Every entry of the result is in the block written back at the last hidden tile of its expert and token block. -/
theorem cover (i : S8x2048x1024.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 1024 := (i 2).isLt
  have hlt : 16 * (i 0).val + 8 * ((i 1).val / 1024) + 7 < cfg0.N := by
    rw [show cfg0.N = 128 from N_0]; omega
  obtain ⟨-, -, -, -, -, -, -, -, -, o0, o1, o2⟩ := idx_at (16 * (i 0).val + 8 * ((i 1).val / 1024) + 7) hlt
  refine ⟨⟨16 * (i 0).val + 8 * ((i 1).val / 1024) + 7, hlt⟩, (flush0_3 _).mpr (by show (16 * (i 0).val + 8 * ((i 1).val / 1024) + 7) % 8 = 7; omega), ?_⟩
  rw [mem_blk]
  intro a
  match a with
  | ⟨0, _⟩ => show win0_3.index _ (0 : Fin 3) * 1 ≤ (i 0).val ∧ (i 0).val < win0_3.index _ (0 : Fin 3) * 1 + 1; omega
  | ⟨1, _⟩ => show win0_3.index _ (1 : Fin 3) * 1024 ≤ (i 1).val ∧ (i 1).val < win0_3.index _ (1 : Fin 3) * 1024 + 1024; omega
  | ⟨2, _⟩ => show win0_3.index _ (2 : Fin 3) * 1024 ≤ (i 2).val ∧ (i 2).val < win0_3.index _ (2 : Fin 3) * 1024 + 1024; omega

/-- After the run the result array holds the network function of the arguments. -/
theorem final (c : Dev nD) : (dats m 0 c).arrAt 3 cfg0.N = result m c :=
  (dats m 0 c).arrAt_eq_of_cover 3 (result m c) (fun t hf => flushed_eq m c t hf) cover

/-- The kernel's run: every weakly fair execution terminates with the result array at the network function of the
    arguments and the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.Ffn.KernelValue

end
-- ==== Proof.RefSpec.lean ====
/-
  The reference computes the network function.

  Its result is a product over the hidden axis of (the positive part of a product over the feature axis) with the
  second layer's weights, both products batched over the expert axis and both contracting the operands' last axes.
  Read at an output index `(e, t, d)`: the outer product is the sum over hidden units `h`, whose left factor at
  `(e, t, h)` is the larger of the inner sum over `j` of `x[e, t, j] · w₁[e, h, j]` and the zero word, and whose right
  factor is `w₂[e, d, h]` — entry by entry the network function.
-/
import proofs.«177868_j35948876267749_2_alg».proof.Proof.Gen.ReferenceIdeal.Read
import proofs.«177868_j35948876267749_2_alg».proof.Proof.Spec

noncomputable section

open scoped BigOperators

namespace Cert.Ffn.Reference

open Idealize.ShloMosaic Idealize.ShloMosaic.ValueIdx Cert.ReferenceIdeal Cert.ReferenceIdeal.Read

/-- The outer product's left index at hidden unit `h`, sent through the inner product's left index at feature `j`:
    `x` is read at `(e, t, j)`. -/
theorem left_left (i : S8x2048x1024.Idx) (h : Fin 4096) (j : Fin 1024) :
    lidx_main_v0 (lidx_main_v2 i h) j = ix3 (i 0) (i 1) j :=
  funext fun a => Fin.ext (by match a with | ⟨0, _⟩ => rfl | ⟨1, _⟩ => rfl | ⟨2, _⟩ => rfl)

/-- … and through the inner product's right index: `w₁` is read at `(e, h, j)`. -/
theorem left_right (i : S8x2048x1024.Idx) (h : Fin 4096) (j : Fin 1024) :
    ridx_main_v0 (lidx_main_v2 i h) j = ix3 (i 0) h j :=
  funext fun a => Fin.ext (by match a with | ⟨0, _⟩ => rfl | ⟨1, _⟩ => rfl | ⟨2, _⟩ => rfl)

/-- The outer product's right index: `w₂` is read at `(e, d, h)`. -/
theorem right (i : S8x2048x1024.Idx) (h : Fin 4096) : ridx_main_v2 i h = ix3 (i 0) (i 2) h :=
  funext fun a => Fin.ext (by match a with | ⟨0, _⟩ => rfl | ⟨1, _⟩ => rfl | ⟨2, _⟩ => rfl)

/-- The reference's result, as a function of its three arguments, is the network function. -/
theorem result_eq (x : FVec Ideal S8x2048x1024 .f32) (w1 : FVec Ideal S8x4096x1024 .f32) (w2 : FVec Ideal S8x1024x4096 .f32) :
    val_main_v2 (F := Ideal) x w1 w2 = ffn x w1 w2 := by
  funext i
  rw [val_main_v2_apply]
  unfold ffn
  refine Finset.sum_congr rfl fun h _ => ?_
  rw [val_main_v1_apply, val_main_v0_apply, val_main_call0_v0_apply, val_main_call0_cst_apply, right]
  simp only [left_left, left_right]
  rfl

end Cert.Ffn.Reference

end
-- ==== Proof.lean ====
/-
  A grouped two-layer network over 8 experts — for each expert, 2048 tokens of 1024 features, a first layer of 4096
  hidden units taken positive part, a second layer back to 1024 features — computed by a kernel that walks the hidden
  axis in 8 tiles of 512 and keeps a running sum, against the plain formula

      out[e, t, d] = ∑ₕ max(∑ⱼ x[e, t, j] · w₁[e, h, j], 0) · w₂[e, d, h].

  On the extended reals the two agree entry by entry, for all inputs: the kernel's running sum over the tiles is the
  formula's sum over the hidden units regrouped tile by tile (Proof/Spec.lean), and regrouping a finite sum needs
  nothing of its terms. The pieces: the formula as one function (Proof/Spec.lean); the reference computes it
  (Proof/RefSpec.lean); one step of the kernel at an entry (Proof/Step.lean), what each of the body's three control
  cases leaves (Proof/Cases.lean), the running sum over a run of eight steps (Proof/Accum.lean), where the blocks sit
  in the arrays (Proof/Blocks.lean), and the kernel's result array as the formula (Proof/KernelValue.lean).

  Both kernels run, fault-free and leaving their arguments as they were, by the generated frame; the reference by its
  generated run. The idealized kernel is the kernel's own text read on the extended reals: no rewrite was applied.
-/
import proofs.«177868_j35948876267749_2_alg».proof.Defs
import proofs.«177868_j35948876267749_2_alg».proof.Proof.Gen.Kernel
import proofs.«177868_j35948876267749_2_alg».proof.Proof.Gen.Kernel.Skeleton
import proofs.«177868_j35948876267749_2_alg».proof.Proof.Gen.Kernel.Launch
import proofs.«177868_j35948876267749_2_alg».proof.Proof.Gen.Kernel.Points
import proofs.«177868_j35948876267749_2_alg».proof.Proof.Gen.Kernel.Frame
import proofs.«177868_j35948876267749_2_alg».proof.Proof.Gen.KernelIdeal
import proofs.«177868_j35948876267749_2_alg».proof.Proof.Gen.KernelIdeal.Skeleton
import proofs.«177868_j35948876267749_2_alg».proof.Proof.Gen.KernelIdeal.Launch
import proofs.«177868_j35948876267749_2_alg».proof.Proof.Gen.KernelIdeal.Points
import proofs.«177868_j35948876267749_2_alg».proof.Proof.Gen.KernelIdeal.Frame
import proofs.«177868_j35948876267749_2_alg».proof.Proof.Gen.ReferenceIdeal
import proofs.«177868_j35948876267749_2_alg».proof.Proof.Gen.Pre_finite_inputs
import proofs.«177868_j35948876267749_2_alg».proof.Proof.KernelValue
import proofs.«177868_j35948876267749_2_alg».proof.Proof.RefSpec
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments unchanged: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten for the reading on the extended reals: nothing to preserve. -/
theorem preserves : Cert.preserves_Kernel_KernelIdeal := trivial

/-- From memories agreeing on the three arguments, the kernel's result array and the reference's both end at the
    network function of those arguments. -/
theorem algebraic : Cert.algebraic_KernelIdeal_ReferenceIdeal := by
  intro m ρ m' ρ' _ hagree
  refine ⟨fun c => Cert.Ffn.KernelValue.result m c, Cert.Ffn.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.Ffn.Reference.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
